-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x114 : Shape := ⟨2, ![262144, 114]⟩
abbrev S262144x212 : Shape := ⟨2, ![262144, 212]⟩
abbrev S114x64 : Shape := ⟨2, ![114, 64]⟩
abbrev S212x64 : Shape := ⟨2, ![212, 64]⟩
abbrev S64 : Shape := ⟨1, ![64]⟩
abbrev S_ : Shape := ⟨0, ![]⟩

class Facts : Prop where
  bcast_S_S262144x114 : S_.BroadcastsInDim S262144x114 (![] : Fin 0 → Fin S262144x114.rank)
  reducesTo_S262144x114_S_d0_1 : S262144x114.ReducesTo [0, 1] S_
  h_S_ : 0 < S_.numel
  bcast_S_S262144x212 : S_.BroadcastsInDim S262144x212 (![] : Fin 0 → Fin S262144x212.rank)
  reducesTo_S262144x212_S_d0_1 : S262144x212.ReducesTo [0, 1] S_
  bcast_S_S114x64 : S_.BroadcastsInDim S114x64 (![] : Fin 0 → Fin S114x64.rank)
  reducesTo_S114x64_S_d0_1 : S114x64.ReducesTo [0, 1] S_
  bcast_S_S212x64 : S_.BroadcastsInDim S212x64 (![] : Fin 0 → Fin S212x64.rank)
  reducesTo_S212x64_S_d0_1 : S212x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S212x64 1) : IVec S_ 1 :=
  let main_c_5 : IVec S_ 1 := constantI S_ 1 1#1
  let main_v17 : IVec S_ 1 := (fun x v => Host.reduce IntOp.andi x v reducesTo_S212x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S262144x114 .f32) (main_arg1 : FVec F S262144x212 .f32) (main_arg2 : FVec F S114x64 .f32) (main_arg3 : FVec F S212x64 .f32) (main_arg4 : FVec F S64 .f32) : IVec S_ 1 :=
  let main_v0 : FVec F S262144x114 .f32 := Host.absf main_arg0
  let main_cst : FVec F S_ .f32 := constant S_ .f32 0x7F800000#32
  let main_v1 : FVec F S262144x114 .f32 := broadcastInDim S262144x114 ![] bcast_S_S262144x114 main_cst
  let main_v2 : IVec S262144x114 1 := cmpf .olt main_v0 main_v1
  let main_c : IVec S_ 1 := constantI S_ 1 1#1
  let main_v3 : IVec S_ 1 := (fun x v => Host.reduce IntOp.andi x v reducesTo_S262144x114_S_d0_1 h_S_) main_v2 main_c
  let main_v4 : FVec F S262144x212 .f32 := Host.absf main_arg1
  let main_cst_0 : FVec F S_ .f32 := constant S_ .f32 0x7F800000#32
  let main_v5 : FVec F S262144x212 .f32 := broadcastInDim S262144x212 ![] bcast_S_S262144x212 main_cst_0
  let main_v6 : IVec S262144x212 1 := cmpf .olt main_v4 main_v5
  let main_c_1 : IVec S_ 1 := constantI S_ 1 1#1
  let main_v7 : IVec S_ 1 := (fun x v => Host.reduce IntOp.andi x v reducesTo_S262144x212_S_d0_1 h_S_) main_v6 main_c_1
  let main_v8 : IVec S_ 1 := andi main_v3 main_v7
  let main_v9 : FVec F S114x64 .f32 := Host.absf main_arg2
  let main_cst_2 : FVec F S_ .f32 := constant S_ .f32 0x7F800000#32
  let main_v10 : FVec F S114x64 .f32 := broadcastInDim S114x64 ![] bcast_S_S114x64 main_cst_2
  let main_v11 : IVec S114x64 1 := cmpf .olt main_v9 main_v10
  let main_c_3 : IVec S_ 1 := constantI S_ 1 1#1
  let main_v12 : IVec S_ 1 := (fun x v => Host.reduce IntOp.andi x v reducesTo_S114x64_S_d0_1 h_S_) main_v11 main_c_3
  let main_v13 : IVec S_ 1 := andi main_v8 main_v12
  let main_v14 : FVec F S212x64 .f32 := Host.absf main_arg3
  let main_cst_4 : FVec F S_ .f32 := constant S_ .f32 0x7F800000#32
  let main_v15 : FVec F S212x64 .f32 := broadcastInDim S212x64 ![] bcast_S_S212x64 main_cst_4
  let main_v16 : IVec S212x64 1 := cmpf .olt main_v14 main_v15
  fn_part1 (F := F) main_arg4 main_v13 main_v16
-- ==== Kernel.lean ====
abbrev S262144x114 : Shape := ⟨2, ![262144, 114]⟩
abbrev S262144x212 : Shape := ⟨2, ![262144, 212]⟩
abbrev S114x64 : Shape := ⟨2, ![114, 64]⟩
abbrev S212x64 : Shape := ⟨2, ![212, 64]⟩
abbrev S64 : Shape := ⟨1, ![64]⟩
abbrev S_ : Shape := ⟨0, ![]⟩
abbrev S262144x128 : Shape := ⟨2, ![262144, 128]⟩
abbrev S128x64 : Shape := ⟨2, ![128, 64]⟩
abbrev S64x114 : Shape := ⟨2, ![64, 114]⟩
abbrev S64x128 : Shape := ⟨2, ![64, 128]⟩
abbrev S1x64 : Shape := ⟨2, ![1, 64]⟩
abbrev S8192x128 : Shape := ⟨2, ![8192, 128]⟩
abbrev S8192x212 : Shape := ⟨2, ![8192, 212]⟩
abbrev S8192x64 : Shape := ⟨2, ![8192, 64]⟩

abbrev nBuf : Space → Nat
  | .hbm => 24
  | .vmem => 10
  | .smem => 0
  | _ => 0

abbrev bufTy : (tb : Table) → Fin (tcTables nBuf tb) → BufTy
  | .hbm, ⟨0, _⟩ => ⟨S262144x114, .f32⟩
  | .hbm, ⟨1, _⟩ => ⟨S262144x212, .f32⟩
  | .hbm, ⟨2, _⟩ => ⟨S114x64, .f32⟩
  | .hbm, ⟨3, _⟩ => ⟨S212x64, .f32⟩
  | .hbm, ⟨4, _⟩ => ⟨S64, .f32⟩
  | .hbm, ⟨5, _⟩ => ⟨S_, .i32⟩
  | .hbm, ⟨6, _⟩ => ⟨S_, .f32⟩
  | .hbm, ⟨7, _⟩ => ⟨S262144x128, .f32⟩
  | .hbm, ⟨8, _⟩ => ⟨S114x64, .f32⟩
  | .hbm, ⟨9, _⟩ => ⟨S_, .f32⟩
  | .hbm, ⟨10, _⟩ => ⟨S114x64, .f32⟩
  | .hbm, ⟨11, _⟩ => ⟨S114x64, .f32⟩
  | .hbm, ⟨12, _⟩ => ⟨S_, .i32⟩
  | .hbm, ⟨13, _⟩ => ⟨S_, .f32⟩
  | .hbm, ⟨14, _⟩ => ⟨S128x64, .f32⟩
  | .hbm, ⟨15, _⟩ => ⟨S64x114, .f32⟩
  | .hbm, ⟨16, _⟩ => ⟨S_, .i32⟩
  | .hbm, ⟨17, _⟩ => ⟨S_, .f32⟩
  | .hbm, ⟨18, _⟩ => ⟨S64x128, .f32⟩
  | .hbm, ⟨19, _⟩ => ⟨S1x64, .f32⟩
  | .hbm, ⟨20, _⟩ => ⟨S262144x212, .bf16⟩
  | .hbm, ⟨21, _⟩ => ⟨S212x64, .bf16⟩
  | .hbm, ⟨22, _⟩ => ⟨S262144x128, .f32⟩
  | .hbm, ⟨23, _⟩ => ⟨S262144x114, .f32⟩
  | .local _ .vmem, ⟨0, _⟩ => ⟨S8192x128, .f32⟩
  | .local _ .vmem, ⟨1, _⟩ => ⟨S8192x128, .f32⟩
  | .local _ .vmem, ⟨2, _⟩ => ⟨S8192x212, .bf16⟩
  | .local _ .vmem, ⟨3, _⟩ => ⟨S8192x212, .bf16⟩
  | .local _ .vmem, ⟨4, _⟩ => ⟨S212x64, .bf16⟩
  | .local _ .vmem, ⟨5, _⟩ => ⟨S128x64, .f32⟩
  | .local _ .vmem, ⟨6, _⟩ => ⟨S64x128, .f32⟩
  | .local _ .vmem, ⟨7, _⟩ => ⟨S1x64, .f32⟩
  | .local _ .vmem, ⟨8, _⟩ => ⟨S8192x128, .f32⟩
  | .local _ .vmem, ⟨9, _⟩ => ⟨S8192x128, .f32⟩
  | _, _ => ⟨S262144x114, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x212 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S212x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S262144x114_S262144x128_000_0140 : S262144x114.Pads (![0, 0] : Fin 2 → Nat) ![0, 14] ![0, 0] S262144x128
  h_S_ : 0 < S_.numel
  bcast_S_S114x64 : S_.BroadcastsInDim S114x64 (![] : Fin 0 → Fin S114x64.rank)
  pads_S114x64_S128x64_0140_000 : S114x64.Pads (![0, 0] : Fin 2 → Nat) ![14, 0] ![0, 0] S128x64
  transposes_S114x64_S64x114_1_0 : S114x64.Transposes [1, 0] S64x114
  pads_S64x114_S64x128_000_0140 : S64x114.Pads (![0, 0] : Fin 2 → Nat) ![0, 14] ![0, 0] S64x128
  shapeCasts_S64_S1x64 : S64.ShapeCasts S1x64
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x212_S8192x212_0_0 : ∀ a, (![0, 0] : Fin 2 → Nat) a + S8192x212.size a ≤ S8192x212.size a
  h_S8192x212 : 0 < S8192x212.numel
  shapeCasts_S8192x212_S8192x212 : S8192x212.ShapeCasts S8192x212
  inb_S212x64_S212x64_0_0 : ∀ a, (![0, 0] : Fin 2 → Nat) a + S212x64.size a ≤ S212x64.size a
  h_S212x64 : 0 < S212x64.numel
  shapeCasts_S212x64_S212x64 : S212x64.ShapeCasts S212x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  slices_S262144x128_S262144x114_0_0 : S262144x128.Slices ![0, 0] S262144x114
  dot_S8192x212_S212x64_S8192x64_1_0_0_1_n_n_wf : DotDims.WF S8192x212 S212x64 S8192x64 [1] [0] [0] [1] [] []
  dot_S8192x128_S128x64_S8192x64_1_0_0_1_n_n_wf : DotDims.WF S8192x128 S128x64 S8192x64 [1] [0] [0] [1] [] []
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x212.size a ≤ S262144x212.size a
  hwx0_1 : ∀ i : grid0.Coords, EltTy.bits .bf16 = 32 ∨ (Rect.block (s := S262144x212) S8192x212.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S212x64.size a ≤ S212x64.size a
  hwx0_2 : ∀ i : grid0.Coords, EltTy.bits .bf16 = 32 ∨ (Rect.block (s := S212x64) S212x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8192x128.size a ≤ S262144x128.size a
  hwx0_6 : ∀ i : grid0.Coords, EltTy.bits .f32 = 32 ∨ (Rect.block (s := S262144x128) S8192x128.size (cc0_transform_6 i) (hinb0_6 i)).WholeWords (EltTy.packing .f32)

variable [Facts₀]

def dot_S8192x212_S212x64_S8192x64_1_0_0_1_n_n : DotDims S8192x212 S212x64 S8192x64 where
  lhsContracting := [1]
  rhsContracting := [0]
  lhsNonContracting := [0]
  rhsNonContracting := [1]
  lhsBatch := []
  rhsBatch := []
  wf := dot_S8192x212_S212x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x212.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S212x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S8192x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x114 : Shape := ⟨2, ![262144, 114]⟩
abbrev S262144x212 : Shape := ⟨2, ![262144, 212]⟩
abbrev S114x64 : Shape := ⟨2, ![114, 64]⟩
abbrev S212x64 : Shape := ⟨2, ![212, 64]⟩
abbrev S64 : Shape := ⟨1, ![64]⟩
abbrev S262144x64 : Shape := ⟨2, ![262144, 64]⟩
abbrev S_ : Shape := ⟨0, ![]⟩
abbrev S1x64 : Shape := ⟨2, ![1, 64]⟩
abbrev S64x114 : Shape := ⟨2, ![64, 114]⟩

abbrev nBuf : Space → Nat
  | .hbm => 37
  | .vmem => 0
  | .smem => 0
  | _ => 0

abbrev bufTy : (tb : Table) → Fin (tcTables nBuf tb) → BufTy
  | .hbm, ⟨0, _⟩ => ⟨S262144x114, .f32⟩
  | .hbm, ⟨1, _⟩ => ⟨S262144x212, .f32⟩
  | .hbm, ⟨2, _⟩ => ⟨S114x64, .f32⟩
  | .hbm, ⟨3, _⟩ => ⟨S212x64, .f32⟩
  | .hbm, ⟨4, _⟩ => ⟨S64, .f32⟩
  | .hbm, ⟨5, _⟩ => ⟨S262144x64, .f32⟩
  | .hbm, ⟨6, _⟩ => ⟨S114x64, .f32⟩
  | .hbm, ⟨7, _⟩ => ⟨S_, .f32⟩
  | .hbm, ⟨8, _⟩ => ⟨S114x64, .f32⟩
  | .hbm, ⟨9, _⟩ => ⟨S114x64, .f32⟩
  | .hbm, ⟨10, _⟩ => ⟨S_, .f32⟩
  | .hbm, ⟨11, _⟩ => ⟨S262144x114, .f32⟩
  | .hbm, ⟨12, _⟩ => ⟨S262144x114, .f32⟩
  | .hbm, ⟨13, _⟩ => ⟨S262144x114, .f32⟩
  | .hbm, ⟨14, _⟩ => ⟨S262144x64, .f32⟩
  | .hbm, ⟨15, _⟩ => ⟨S262144x64, .f32⟩
  | .hbm, ⟨16, _⟩ => ⟨S_, .f32⟩
  | .hbm, ⟨17, _⟩ => ⟨S262144x64, .f32⟩
  | .hbm, ⟨18, _⟩ => ⟨S262144x64, .f32⟩
  | .hbm, ⟨19, _⟩ => ⟨S_, .f32⟩
  | .hbm, ⟨20, _⟩ => ⟨S262144x64, .f32⟩
  | .hbm, ⟨21, _⟩ => ⟨S262144x64, .f32⟩
  | .hbm, ⟨22, _⟩ => ⟨S1x64, .f32⟩
  | .hbm, ⟨23, _⟩ => ⟨S262144x64, .f32⟩
  | .hbm, ⟨24, _⟩ => ⟨S262144x64, .f32⟩
  | .hbm, ⟨25, _⟩ => ⟨S262144x64, .f32⟩
  | .hbm, ⟨26, _⟩ => ⟨S262144x64, .f32⟩
  | .hbm, ⟨27, _⟩ => ⟨S262144x64, .f32⟩
  | .hbm, ⟨28, _⟩ => ⟨S64x114, .f32⟩
  | .hbm, ⟨29, _⟩ => ⟨S262144x114, .f32⟩
  | .hbm, ⟨30, _⟩ => ⟨S_, .f32⟩
  | .hbm, ⟨31, _⟩ => ⟨S262144x114, .f32⟩
  | .hbm, ⟨32, _⟩ => ⟨S262144x114, .f32⟩
  | .hbm, ⟨33, _⟩ => ⟨S262144x114, .f32⟩
  | .hbm, ⟨34, _⟩ => ⟨S_, .f32⟩
  | .hbm, ⟨35, _⟩ => ⟨S262144x114, .f32⟩
  | .hbm, ⟨36, _⟩ => ⟨S262144x114, .f32⟩
  | _, _ => ⟨S262144x114, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S_S114x64 : S_.BroadcastsInDim S114x64 (![] : Fin 0 → Fin S114x64.rank)
  bcast_S_S262144x114 : S_.BroadcastsInDim S262144x114 (![] : Fin 0 → Fin S262144x114.rank)
  bcast_S_S262144x64 : S_.BroadcastsInDim S262144x64 (![] : Fin 0 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  transposes_S114x64_S64x114_1_0 : S114x64.Transposes [1, 0] S64x114
  dot_S262144x212_S212x64_S262144x64_1_0_0_1_n_n_wf : DotDims.WF S262144x212 S212x64 S262144x64 [1] [0] [0] [1] [] []
  dot_S262144x114_S114x64_S262144x64_1_0_0_1_n_n_wf : DotDims.WF S262144x114 S114x64 S262144x64 [1] [0] [0] [1] [] []
  dot_S262144x64_S64x114_S262144x114_1_0_0_1_n_n_wf : DotDims.WF S262144x64 S64x114 S262144x114 [1] [0] [0] [1] [] []

variable [Facts₀]

def dot_S262144x212_S212x64_S262144x64_1_0_0_1_n_n : DotDims S262144x212 S212x64 S262144x64 where
  lhsContracting := [1]
  rhsContracting := [0]
  lhsNonContracting := [0]
  rhsNonContracting := [1]
  lhsBatch := []
  rhsBatch := []
  wf := dot_S262144x212_S212x64_S262144x64_1_0_0_1_n_n_wf
def dot_S262144x114_S114x64_S262144x64_1_0_0_1_n_n : DotDims S262144x114 S114x64 S262144x64 where
  lhsContracting := [1]
  rhsContracting := [0]
  lhsNonContracting := [0]
  rhsNonContracting := [1]
  lhsBatch := []
  rhsBatch := []
  wf := dot_S262144x114_S114x64_S262144x64_1_0_0_1_n_n_wf
def dot_S262144x64_S64x114_S262144x114_1_0_0_1_n_n : DotDims S262144x64 S64x114 S262144x114 where
  lhsContracting := [1]
  rhsContracting := [0]
  lhsNonContracting := [0]
  rhsNonContracting := [1]
  lhsBatch := []
  rhsBatch := []
  wf := dot_S262144x64_S64x114_S262144x114_1_0_0_1_n_n_wf

class Facts : Prop extends Facts₀ where

variable [Facts]
-- ==== Proof.LibPadSum.lean ====
import Mathlib.Algebra.BigOperators.Fin

/-!
# A finite sum whose tail vanishes

A sum over `Fin m` whose terms are zero from position `n` on is the sum of its first `n` terms.
Stated over any additive commutative monoid, so it applies to the extended reals, where the usual
route through subtraction is not available. This is what zero-padding a contracted axis amounts to:
the padded positions add nothing.
-/

namespace Cert.LibPadSum

open Finset

/-- If `f k = 0` for every `k : Fin m` with `n ≤ k`, then `∑ k : Fin m, f k` is the sum of `f` over the
    first `n` positions (embedded by `Fin.castLE`). -/
theorem sum_eq_sum_castLE {M : Type*} [AddCommMonoid M] {n m : ℕ} (h : n ≤ m) (f : Fin m → M)
    (hz : ∀ k : Fin m, n ≤ k.val → f k = 0) :
    ∑ k : Fin m, f k = ∑ k : Fin n, f (Fin.castLE h k) := by
  obtain ⟨d, rfl⟩ := Nat.exists_eq_add_of_le h
  rw [Fin.sum_univ_add]
  have htail : ∑ i : Fin d, f (Fin.natAdd n i) = 0 :=
    Finset.sum_eq_zero fun i _ => hz _ (by simp [Fin.natAdd])
  rw [htail, add_zero]
  exact Finset.sum_congr rfl fun k _ => congrArg f (Fin.ext rfl)

end Cert.LibPadSum
-- ==== Proof.Spec.lean ====
import Idealize.ShloMosaic.PureOps.Ideal
import Idealize.ShloMosaic.PureOps.Ideal.Laws
import Idealize.ShloMosaic.Lib.ValueIdx
import proofs.«181689_j74663711474155_2_alg».proof.Proof.LibPadSum

/-!
# One Euler step of mass-action kinetics, on the extended reals

For a cell `b`, reaction `j` and metabolite `i`:

* enzyme activity  `e(b,j) = Σ_g expr(b,g) · G(g,j)`;
* substrate term   `a(b,j) = Σ_i log(conc(b,i) + ε) · max(−S(i,j), 0)`;
* reaction rate    `r(b,j) = kcat(j) · σ(e(b,j)) · exp(a(b,j))`, with `σ x = 1 / (1 + e^{−x})`;
* the step         `conc'(b,i) = max(conc(b,i) + Δt · Σ_j r(b,j) · S(i,j), 0)`.

`step` is this function of the five argument arrays. `stepPad` is the same formula read over arrays whose
metabolite axis has been widened from 114 to 128 lanes, and `stepPad_eq_step` says that on the first 114 lanes the
two agree as soon as the widened substrate matrix is zero on the extra rows: the extra terms of the substrate sum
are then `x · 0 = 0` for every extended real `x`, so no finiteness is needed.
-/

noncomputable section

namespace Cert.Kinetics

open Idealize.ShloMosaic Idealize.ShloMosaic.ValueIdx

/-- The two float literals both programs carry, kept as their words: `ε` (written `1e-6`) and `Δt` (written `0.01`). -/
abbrev eps : EReal := Ideal.ofBits .f32 0x358637BD#32
abbrev dt : EReal := Ideal.ofBits .f32 0x3C23D70A#32

/-- A matrix of extended reals with literal extents. -/
abbrev Arr (a b : ℕ) : Type := (⟨2, ![a, b]⟩ : Shape).Idx → EReal

/-- Enzyme activity of reaction `j` in cell `b`: the expression of its catalysing genes, summed. -/
def enzyme (ge : Arr 262144 212) (Gm : Arr 212 64) (b : Fin 262144) (j : Fin 64) : EReal :=
  ∑ k : Fin 212, ge (ix2 b k) * Gm (ix2 k j)

/-- The substrate coefficient of metabolite `k` in reaction `j`: the negative part of the stoichiometry. -/
def substrate (S : Arr 114 64) (k : Fin 114) (j : Fin 64) : EReal := max (-(S (ix2 k j))) 0

/-- The logarithm of the mass-action product of reaction `j` in cell `b`. -/
def massAction (conc : Arr 262144 114) (S : Arr 114 64) (b : Fin 262144) (j : Fin 64) : EReal :=
  ∑ k : Fin 114, Ideal.log (conc (ix2 b k) + eps) * substrate S k j

/-- The rate of reaction `j` in cell `b`. -/
def rate (conc : Arr 262144 114) (ge : Arr 262144 212) (S : Arr 114 64) (Gm : Arr 212 64)
    (kcat : (⟨1, ![64]⟩ : Shape).Idx → EReal) (b : Fin 262144) (j : Fin 64) : EReal :=
  kcat (ix1 j) * Ideal.logistic (enzyme ge Gm b j) * Ideal.exp (massAction conc S b j)

/-- The metabolite concentrations after one step. -/
def step (conc : Arr 262144 114) (ge : Arr 262144 212) (S : Arr 114 64) (Gm : Arr 212 64)
    (kcat : (⟨1, ![64]⟩ : Shape).Idx → EReal) : Arr 262144 114 := fun i =>
  max (conc i + dt * ∑ j : Fin 64, rate conc ge S Gm kcat (i 0) j * S (ix2 (i 1) j)) 0

/-- The same formula over widened arrays: concentrations `A0` with 128 lanes, expression `A1`, gene map `A2`,
    substrate coefficients `A3` with 128 rows, transposed stoichiometry `A4` with 128 columns, rate constants `A5`
    as one row. -/
def stepPad (A0 : Arr 262144 128) (A1 : Arr 262144 212) (A2 : Arr 212 64) (A3 : Arr 128 64) (A4 : Arr 64 128)
    (A5 : Arr 1 64) : Arr 262144 128 := fun i =>
  max (A0 i + dt * ∑ j : Fin 64,
      (A5 (ix2 (0 : Fin 1) j) * Ideal.logistic (∑ k : Fin 212, A1 (ix2 (i 0) k) * A2 (ix2 k j))
        * Ideal.exp (∑ k : Fin 128, Ideal.log (A0 (ix2 (i 0) k) + eps) * A3 (ix2 k j))) * A4 (ix2 j (i 1))) 0

/-- On the first 114 lanes the widened formula is the step: the widened arrays agree with the arguments there, and
    the substrate matrix's extra rows are zero, so each of the 14 extra terms of the substrate sum is `x · 0 = 0`. -/
theorem stepPad_eq_step (conc : Arr 262144 114) (ge : Arr 262144 212) (S : Arr 114 64) (Gm : Arr 212 64)
    (kcat : (⟨1, ![64]⟩ : Shape).Idx → EReal)
    (A0 : Arr 262144 128) (A1 : Arr 262144 212) (A2 : Arr 212 64) (A3 : Arr 128 64) (A4 : Arr 64 128) (A5 : Arr 1 64)
    (h0 : ∀ (b : Fin 262144) (k : Fin 114), A0 (ix2 b (Fin.castLE (by decide) k)) = conc (ix2 b k))
    (h1 : A1 = ge) (h2 : A2 = Gm)
    (h3 : ∀ (k : Fin 114) (j : Fin 64), A3 (ix2 (Fin.castLE (by decide) k) j) = substrate S k j)
    (h3z : ∀ (k : Fin 128) (j : Fin 64), 114 ≤ k.val → A3 (ix2 k j) = 0)
    (h4 : ∀ (j : Fin 64) (q : Fin 114), A4 (ix2 j (Fin.castLE (by decide) q)) = S (ix2 q j))
    (h5 : ∀ j : Fin 64, A5 (ix2 (0 : Fin 1) j) = kcat (ix1 j))
    (b : Fin 262144) (q : Fin 114) :
    stepPad A0 A1 A2 A3 A4 A5 (ix2 b (Fin.castLE (by decide) q)) = step conc ge S Gm kcat (ix2 b q) := by
  subst h1 h2
  have hm : ∀ j : Fin 64,
      (∑ k : Fin 128, Ideal.log (A0 (ix2 b k) + eps) * A3 (ix2 k j)) = massAction conc S b j := by
    intro j
    rw [Cert.LibPadSum.sum_eq_sum_castLE (by decide : 114 ≤ 128) _ (fun k hk => by rw [h3z k j hk, mul_zero])]
    exact Finset.sum_congr rfl fun k _ => by rw [h0, h3]
  show max (A0 (ix2 b (Fin.castLE _ q)) + dt * ∑ j : Fin 64,
      (A5 (ix2 (0 : Fin 1) j) * Ideal.logistic (∑ k : Fin 212, A1 (ix2 b k) * A2 (ix2 k j))
        * Ideal.exp (∑ k : Fin 128, Ideal.log (A0 (ix2 b k) + eps) * A3 (ix2 k j))) * A4 (ix2 j (Fin.castLE _ q))) 0
    = max (conc (ix2 b q) + dt * ∑ j : Fin 64, rate conc A1 S A2 kcat b j * S (ix2 q j)) 0
  rw [h0]
  refine congrArg (fun s => max (conc (ix2 b q) + dt * s) 0) (Finset.sum_congr rfl fun j _ => ?_)
  rw [hm j, h4, h5]
  rfl

end Cert.Kinetics

end
-- ==== Proof.Reference.lean ====
import proofs.«181689_j74663711474155_2_alg».proof.Proof.Gen.ReferenceIdeal.Run
import proofs.«181689_j74663711474155_2_alg».proof.Proof.Gen.ReferenceIdeal.Read
import proofs.«181689_j74663711474155_2_alg».proof.Proof.Spec

/-!
# The reference program computes the kinetics step

The reference is a straight line of 32 array operations. Read at cell `b` and reaction `j` (or metabolite `q`),
each of them is one term of the step's formula:

* the first matrix product, `expr · G`, is the enzyme activity `e(b,j)`;
* `max(−S, 0)` is the substrate coefficient, `log(conc + ε)` the logarithm of the shifted concentration, and their
  matrix product is the logarithm `a(b,j)` of the mass-action product;
* `1 / (1 + e^{−x})` at `x = e(b,j)` is the logistic function, by that function's definition;
* `kcat(j) · σ(e(b,j)) · exp(a(b,j))` is the rate `r(b,j)`;
* the matrix product of the rates with the transposed stoichiometry is `Σ_j r(b,j) · S(q,j)`;
* the last operations are `max(conc(b,q) + Δt · _, 0)`.

The float words `0` and `1` denote the numbers `0` and `1`; `ε` and `Δt` stay the words the step itself carries.
-/

noncomputable section

namespace Cert.ReferenceIdeal.RefValue

open Cert.ReferenceIdeal Cert.ReferenceIdeal.Gen Cert.ReferenceIdeal.Read Idealize.ShloMosaic
  Idealize.ShloMosaic.ValueIdx Cert.Kinetics

/-- The word `0x3F800000` is the number `1`: sign `+`, exponent field `127` (the bias), fraction `0`, so the
    value is `2^23 · 2^(−23)`. -/
theorem ofBits_one_f32 : Ideal.ofBits .f32 0x3F800000#32 = 1 := by
  simp [Ideal.ofBits, Ideal.ieee]
  rw [← EReal.coe_mul]
  norm_num

section Stages

variable (conc : Arr 262144 114) (ge : Arr 262144 212) (S : Arr 114 64) (Gm : Arr 212 64)
  (kcat : (⟨1, ![64]⟩ : Shape).Idx → EReal)

/-- The product `expr · G` at `(b, j)` is the enzyme activity: the sum over genes `k` of `expr(b,k) · G(k,j)`. -/
theorem enzyme_read (b : Fin 262144) (j : Fin 64) :
    val_main_v0 (F := Ideal) ge Gm (ix2 b j) = enzyme ge Gm b j := by
  rw [val_main_v0_apply]
  refine Finset.sum_congr rfl fun k _ => ?_
  have el : lidx_main_v0 (ix2 b j) k = ix2 b k :=
    funext fun a => Fin.ext (by match a with | ⟨0, _⟩ => rfl | ⟨1, _⟩ => rfl)
  have er : ridx_main_v0 (ix2 b j) k = ix2 k j :=
    funext fun a => Fin.ext (by match a with | ⟨0, _⟩ => rfl | ⟨1, _⟩ => rfl)
  rw [el, er]

/-- `max(−S, 0)` at `(k, j)` is the substrate coefficient of metabolite `k` in reaction `j`. -/
theorem substrate_read (k : Fin 114) (j : Fin 64) :
    val_main_v3 (F := Ideal) S (ix2 k j) = substrate S k j := by
  rw [val_main_v3_apply, val_main_v1_apply, val_main_v2_apply, val_main_cst_apply, Ideal.maximumf_def,
    Ideal.hostNegf_def, Ideal.negf_def, Ideal.ofBits_def, Ideal.ofBits_zero_f32]
  rfl

/-- `log(conc + ε)` at `(b, k)`. -/
theorem log_read (b : Fin 262144) (k : Fin 114) :
    val_main_v6 (F := Ideal) conc (ix2 b k) = Ideal.log (conc (ix2 b k) + eps) := by
  rw [val_main_v6_apply, val_main_v5_apply, val_main_v4_apply, val_main_cst_0_apply, Ideal.hostUnary_log_def,
    Ideal.addf_def, Ideal.ofBits_def]

/-- The product `log(conc + ε) · max(−S, 0)` at `(b, j)` is the logarithm of the mass-action product: the sum over
    metabolites `k` of `log(conc(b,k) + ε)` times the substrate coefficient of `k` in `j`. -/
theorem massAction_read (b : Fin 262144) (j : Fin 64) :
    val_main_v16 (F := Ideal) conc S (ix2 b j) = massAction conc S b j := by
  rw [val_main_v16_apply]
  refine Finset.sum_congr rfl fun k _ => ?_
  have el : lidx_main_v16 (ix2 b j) k = ix2 b k :=
    funext fun a => Fin.ext (by match a with | ⟨0, _⟩ => rfl | ⟨1, _⟩ => rfl)
  have er : ridx_main_v16 (ix2 b j) k = ix2 k j :=
    funext fun a => Fin.ext (by match a with | ⟨0, _⟩ => rfl | ⟨1, _⟩ => rfl)
  rw [el, er, log_read, substrate_read]

/-- `1 / (1 + e^{−x})` at the enzyme activity `x = e(b,j)` is the logistic function of it: that is the function's
    definition, corner cases included, once the word `0x3F800000` is read as `1`. -/
theorem logistic_read (b : Fin 262144) (j : Fin 64) :
    val_main_v12 (F := Ideal) ge Gm (ix2 b j) = Ideal.logistic (enzyme ge Gm b j) := by
  rw [val_main_v12_apply, val_main_v11_apply, val_main_cst_2_apply, val_main_v10_apply, val_main_v9_apply,
    val_main_cst_1_apply, val_main_v8_apply, val_main_v7_apply, enzyme_read, Ideal.hostDivf_def, Ideal.addf_def,
    Ideal.hostUnary_exp_def, Ideal.hostNegf_def, Ideal.negf_def, Ideal.ofBits_def, ofBits_one_f32]
  rfl

/-- The rate constants, widened to one row and then repeated along the cells, read `kcat(j)` at `(b, j)`. -/
theorem kcat_read (b : Fin 262144) (j : Fin 64) :
    val_main_v14 (F := Ideal) kcat (ix2 b j) = kcat (ix1 j) := by
  rw [val_main_v14_apply, val_main_v13_apply]
  congr 1
  funext a
  match a with | ⟨0, _⟩ => rfl

/-- `kcat · σ(e) · exp(a)` at `(b, j)` is the rate of reaction `j` in cell `b`. -/
theorem rate_read (b : Fin 262144) (j : Fin 64) :
    val_main_v18 (F := Ideal) conc ge S Gm kcat (ix2 b j) = rate conc ge S Gm kcat b j := by
  rw [val_main_v18_apply, val_main_v15_apply, val_main_v17_apply, kcat_read, logistic_read, massAction_read,
    Ideal.mulf_def, Ideal.mulf_def, Ideal.hostUnary_exp_def]
  rfl

/-- The transposed stoichiometry at `(j, q)` is `S(q, j)`. -/
theorem stoich_read (j : Fin 64) (q : Fin 114) :
    val_main_v19 (F := Ideal) S (ix2 j q) = S (ix2 q j) := by
  rw [val_main_v19_apply]
  congr 1
  funext a
  match a with | ⟨0, _⟩ => rfl | ⟨1, _⟩ => rfl

/-- The product of the rates with the transposed stoichiometry at `(b, q)` is `Σ_j r(b,j) · S(q,j)`. -/
theorem scatter_read (b : Fin 262144) (q : Fin 114) :
    val_main_v20 (F := Ideal) conc ge S Gm kcat (ix2 b q)
      = ∑ j : Fin 64, rate conc ge S Gm kcat b j * S (ix2 q j) := by
  rw [val_main_v20_apply]
  refine Finset.sum_congr rfl fun j _ => ?_
  have el : lidx_main_v20 (ix2 b q) j = ix2 b j :=
    funext fun a => Fin.ext (by match a with | ⟨0, _⟩ => rfl | ⟨1, _⟩ => rfl)
  have er : ridx_main_v20 (ix2 b q) j = ix2 j q :=
    funext fun a => Fin.ext (by match a with | ⟨0, _⟩ => rfl | ⟨1, _⟩ => rfl)
  rw [el, er, rate_read, stoich_read]

end Stages

/-- The reference's result is the kinetics step: read at cell `b` and metabolite `q`, its last operations are
    `max(conc(b,q) + Δt · Σ_j r(b,j) · S(q,j), 0)`, and every earlier operation is the step's term of the same name. -/
theorem reference_is_step
    (conc : Cert.Kinetics.Arr 262144 114) (ge : Cert.Kinetics.Arr 262144 212) (S : Cert.Kinetics.Arr 114 64)
    (Gm : Cert.Kinetics.Arr 212 64) (kcat : (⟨1, ![64]⟩ : Shape).Idx → EReal) :
    Cert.ReferenceIdeal.Read.val_main_v25 (F := Ideal) conc ge S Gm kcat = Cert.Kinetics.step conc ge S Gm kcat := by
  funext i
  obtain ⟨b, q, rfl⟩ : ∃ (b : Fin 262144) (q : Fin 114), i = ix2 b q :=
    ⟨i 0, i 1, eq_ix2 (n0 := 262144) (n1 := 114) i⟩
  rw [val_main_v25_apply, val_main_v24_apply, val_main_cst_4_apply, val_main_v23_apply, val_main_v22_apply,
    val_main_v21_apply, val_main_cst_3_apply, scatter_read, Ideal.maximumf_def, Ideal.addf_def, Ideal.mulf_def,
    Ideal.ofBits_def, Ideal.ofBits_def, Ideal.ofBits_zero_f32]
  rfl

end Cert.ReferenceIdeal.RefValue

end
-- ==== Proof.Payload.lean ====
import proofs.«181689_j74663711474155_2_alg».proof.Proof.Gen.KernelIdeal.Skeleton
import proofs.«181689_j74663711474155_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# What the kernel body computes on one tile of 8192 cells

The body loads a tile of concentrations (8192 × 128 lanes), of gene expression (8192 × 212), and the four small
whole arrays, and stores one 8192 × 128 tile. Read at cell `p` of the tile and lane `q`, on the extended reals,
the stored value is

  `max (c(p,q) + Δt · Σ_j (kcat(j) · σ(Σ_g expr(p,g)·G(g,j)) · exp(Σ_k log(c(p,k)+ε)·s(k,j))) · Sᵀ(j,q), 0)`,

each of the three matrix products being, into a zero accumulator, the plain sum over its contracted axis.
-/

noncomputable section

namespace Cert.KernelIdeal.Body

open Cert.KernelIdeal Cert.KernelIdeal.Gen Idealize.ShloMosaic Idealize.ShloMosaic.ValueIdx

theorem enzyme_tile_l0 (i : S8192x64.Idx) (q : dot_S8192x212_S212x64_S8192x64_1_0_0_1_n_n.contr.Idx) : (dot_S8192x212_S212x64_S8192x64_1_0_0_1_n_n.lhsIdx i q 0).val = (i 0).val := by
  unfold DotDims.lhsIdx
  rw [dif_neg (show ¬(0 : Fin S8192x212.rank) ∈ dot_S8192x212_S212x64_S8192x64_1_0_0_1_n_n.lhsBatch by decide), dif_pos (show (0 : Fin S8192x212.rank) ∈ dot_S8192x212_S212x64_S8192x64_1_0_0_1_n_n.lhsNonContracting by decide)]
  rfl
theorem enzyme_tile_r1 (i : S8192x64.Idx) (q : dot_S8192x212_S212x64_S8192x64_1_0_0_1_n_n.contr.Idx) : (dot_S8192x212_S212x64_S8192x64_1_0_0_1_n_n.rhsIdx i q 1).val = (i 1).val := by
  unfold DotDims.rhsIdx
  rw [dif_neg (show ¬(1 : Fin S212x64.rank) ∈ dot_S8192x212_S212x64_S8192x64_1_0_0_1_n_n.rhsBatch by decide), dif_pos (show (1 : Fin S212x64.rank) ∈ dot_S8192x212_S212x64_S8192x64_1_0_0_1_n_n.rhsNonContracting by decide)]
  rfl
/-- Expression times the gene map, at cell `p` and reaction `c`: the sum over the 212 genes. -/
theorem enzyme_tile (L : FVec Ideal S8192x212 .bf16) (R : FVec Ideal S212x64 .bf16) (p : Fin 8192) (c : Fin 64) :
    matmul dot_S8192x212_S212x64_S8192x64_1_0_0_1_n_n none L R (constant (F := Ideal) S8192x64 .f32 0x00000000#32) (ix2 p c)
      = ∑ k : Fin 212, L (ix2 p k) * R (ix2 k c) := by
  simp only [matmul]
  rw [Ideal.matmul_constant_zero_apply, ← Equiv.sum_comp (contrEquiv1 dot_S8192x212_S212x64_S8192x64_1_0_0_1_n_n 212 rfl rfl).symm]
  refine Finset.sum_congr rfl fun k _ => ?_
  have hk := contrEquiv1_symm_val dot_S8192x212_S212x64_S8192x64_1_0_0_1_n_n 212 rfl rfl k
  have el : dot_S8192x212_S212x64_S8192x64_1_0_0_1_n_n.lhsIdx (ix2 p c) ((contrEquiv1 dot_S8192x212_S212x64_S8192x64_1_0_0_1_n_n 212 rfl rfl).symm k) = ix2 p k := funext fun a => Fin.ext (by
    match a with
    | ⟨0, _⟩ => exact enzyme_tile_l0 _ _
    | ⟨1, _⟩ => exact (dot_S8192x212_S212x64_S8192x64_1_0_0_1_n_n.lhsIdx_val_of_single rfl _ _).trans hk)
  have er : dot_S8192x212_S212x64_S8192x64_1_0_0_1_n_n.rhsIdx (ix2 p c) ((contrEquiv1 dot_S8192x212_S212x64_S8192x64_1_0_0_1_n_n 212 rfl rfl).symm k) = ix2 k c := funext fun a => Fin.ext (by
    match a with
    | ⟨0, _⟩ => exact (dot_S8192x212_S212x64_S8192x64_1_0_0_1_n_n.rhsIdx_val_of_single rfl _ _).trans hk
    | ⟨1, _⟩ => exact enzyme_tile_r1 _ _)
  rw [el, er]

theorem substrate_tile_l0 (i : S8192x64.Idx) (q : dot_S8192x128_S128x64_S8192x64_1_0_0_1_n_n.contr.Idx) : (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem substrate_tile_r1 (i : S8192x64.Idx) (q : dot_S8192x128_S128x64_S8192x64_1_0_0_1_n_n.contr.Idx) : (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl
/-- Log-concentrations times the substrate coefficients, at cell `p` and reaction `c`: the sum over the 128 lanes. -/
theorem substrate_tile (L : FVec Ideal S8192x128 .f32) (R : FVec Ideal S128x64 .f32) (p : Fin 8192) (c : Fin 64) :
    matmul dot_S8192x128_S128x64_S8192x64_1_0_0_1_n_n (some .fp32) L R (constant (F := Ideal) S8192x64 .f32 0x00000000#32) (ix2 p c)
      = ∑ k : Fin 128, L (ix2 p k) * R (ix2 k c) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p c) ((contrEquiv1 dot_S8192x128_S128x64_S8192x64_1_0_0_1_n_n 128 rfl rfl).symm k) = ix2 p k := funext fun a => Fin.ext (by
    match a with
    | ⟨0, _⟩ => exact substrate_tile_l0 _ _
    | ⟨1, _⟩ => exact (dot_S8192x128_S128x64_S8192x64_1_0_0_1_n_n.lhsIdx_val_of_single rfl _ _).trans hk)
  have er : dot_S8192x128_S128x64_S8192x64_1_0_0_1_n_n.rhsIdx (ix2 p c) ((contrEquiv1 dot_S8192x128_S128x64_S8192x64_1_0_0_1_n_n 128 rfl rfl).symm k) = ix2 k c := funext fun a => Fin.ext (by
    match a with
    | ⟨0, _⟩ => exact (dot_S8192x128_S128x64_S8192x64_1_0_0_1_n_n.rhsIdx_val_of_single rfl _ _).trans hk
    | ⟨1, _⟩ => exact substrate_tile_r1 _ _)
  rw [el, er]

theorem scatter_tile_l0 (i : S8192x128.Idx) (q : dot_S8192x64_S64x128_S8192x128_1_0_0_1_n_n.contr.Idx) : (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem scatter_tile_r1 (i : S8192x128.Idx) (q : dot_S8192x64_S64x128_S8192x128_1_0_0_1_n_n.contr.Idx) : (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl
/-- Rates times the transposed stoichiometry, at cell `p` and lane `c`: the sum over the 64 reactions. -/
theorem scatter_tile (L : FVec Ideal S8192x64 .f32) (R : FVec Ideal S64x128 .f32) (p : Fin 8192) (c : Fin 128) :
    matmul dot_S8192x64_S64x128_S8192x128_1_0_0_1_n_n (some .fp32) L R (constant (F := Ideal) S8192x128 .f32 0x00000000#32) (ix2 p c)
      = ∑ k : Fin 64, L (ix2 p k) * R (ix2 k c) := by
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 p c) ((contrEquiv1 dot_S8192x64_S64x128_S8192x128_1_0_0_1_n_n 64 rfl rfl).symm k) = ix2 p k := funext fun a => Fin.ext (by
    match a with
    | ⟨0, _⟩ => exact scatter_tile_l0 _ _
    | ⟨1, _⟩ => exact (dot_S8192x64_S64x128_S8192x128_1_0_0_1_n_n.lhsIdx_val_of_single rfl _ _).trans hk)
  have er : dot_S8192x64_S64x128_S8192x128_1_0_0_1_n_n.rhsIdx (ix2 p c) ((contrEquiv1 dot_S8192x64_S64x128_S8192x128_1_0_0_1_n_n 64 rfl rfl).symm k) = ix2 k c := funext fun a => Fin.ext (by
    match a with
    | ⟨0, _⟩ => exact (dot_S8192x64_S64x128_S8192x128_1_0_0_1_n_n.rhsIdx_val_of_single rfl _ _).trans hk
    | ⟨1, _⟩ => exact scatter_tile_r1 _ _)
  rw [el, er]

/-- The stored tile at cell `p`, lane `q`, as the step's formula of the loaded tiles. -/
theorem payload_apply (x0 : FVec Ideal S8192x128 .f32) (x1 : FVec Ideal S8192x212 .bf16) (x2 : FVec Ideal S212x64 .bf16)
    (x3 : FVec Ideal S128x64 .f32) (x4 : FVec Ideal S64x128 .f32) (x5 : FVec Ideal S1x64 .f32) (p : Fin 8192) (q : Fin 128) :
    k0_pay1 (F := Ideal) x0 x1 x2 x3 x4 x5 (ix2 p q)
      = max (x0 (ix2 p q) + Cert.Kinetics.dt * ∑ j : Fin 64,
          (x5 (ix2 (0 : Fin 1) j) * Ideal.logistic (∑ k : Fin 212, x1 (ix2 p k) * x2 (ix2 k j))
            * Ideal.exp (∑ k : Fin 128, Ideal.log (x0 (ix2 p k) + Cert.Kinetics.eps) * x3 (ix2 k j))) * x4 (ix2 j q)) 0 := by
  unfold k0_pay1
  simp only [shapeCast_self]
  simp only [maximumf_apply, addf_apply, mulf_apply, broadcast_apply, scatter_tile, enzyme_tile, substrate_tile,
    broadcastTo_1b_ab_apply, logistic, exp, log, Ideal.logistic_def, Ideal.exp_def, Ideal.log_def, Ideal.ofBits_def,
    Ideal.ofBits_zero_f32]

end Cert.KernelIdeal.Body

end
-- ==== Proof.Blocks.lean ====
import proofs.«181689_j74663711474155_2_alg».proof.Proof.Gen.KernelIdeal.Frame
import proofs.«181689_j74663711474155_2_alg».proof.Proof.Payload
import proofs.«181689_j74663711474155_2_alg».proof.Proof.Spec
import Idealize.ShloMosaic.Lib.Pipeline.Value
import Idealize.ShloMosaic.Lib.ValueIdx

/-!
# From tiles to the whole widened array

The grid has 32 points; point `t` works on cells `8192·t … 8192·t + 8191`: it reads those rows of the widened
concentrations and of the expression array, the four small arrays whole, and writes those rows of the 128-lane
output. Since every sum in the step runs along a row, or over a whole small array, the tile point `t` writes is
exactly rows `8192·t …` of ONE function of the arrays the region finds — the widened step `stepPad` — and the 32
tiles cover every row. So after the region the output array is `stepPad` of those arrays.
-/

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The widened step of the arrays as the region finds them: what the output array will hold. -/
def padded (c : Dev nD) : S262144x128.Idx → EReal :=
  Cert.Kinetics.stepPad (V m c main_v0) (V m c main_v8) (V m c main_v9) (V m c main_v4) (V m c main_v6) (V m c main_v7)

/-- A tile of the body's result is the widened step on the rows the tile came from: if the loaded row tiles are rows
    `b p` of `A0` and `A1`, and the small arrays are loaded whole, the stored value at `(p, q)` is `stepPad` at `(b p, q)`. -/
theorem tile_is_stepPad (A0 : Cert.Kinetics.Arr 262144 128) (A1 : Cert.Kinetics.Arr 262144 212) (A2 : Cert.Kinetics.Arr 212 64)
    (A3 : Cert.Kinetics.Arr 128 64) (A4 : Cert.Kinetics.Arr 64 128) (A5 : Cert.Kinetics.Arr 1 64)
    (x0 : FVec Ideal S8192x128 .f32) (x1 : FVec Ideal S8192x212 .bf16) (x2 : FVec Ideal S212x64 .bf16)
    (x3 : FVec Ideal S128x64 .f32) (x4 : FVec Ideal S64x128 .f32) (x5 : FVec Ideal S1x64 .f32)
    (b : Fin 8192 → Fin 262144)
    (h0 : ∀ (p : Fin 8192) (q : Fin 128), x0 (ix2 p q) = A0 (ix2 (b p) q))
    (h1 : ∀ (p : Fin 8192) (k : Fin 212), x1 (ix2 p k) = A1 (ix2 (b p) k))
    (h2 : x2 = A2) (h3 : x3 = A3) (h4 : x4 = A4) (h5 : x5 = A5) (p : Fin 8192) (q : Fin 128) :
    k0_pay1 (F := Ideal) x0 x1 x2 x3 x4 x5 (ix2 p q) = Cert.Kinetics.stepPad A0 A1 A2 A3 A4 A5 (ix2 (b p) q) := by
  subst h2 h3 h4 h5
  rw [Cert.KernelIdeal.Body.payload_apply]
  simp only [h0, h1]
  rfl

/-- The printed index maps, decided over the 32 points: the two row-tiled inputs move with the output, whose block
    index on the row axis is the point itself; the four small arrays stay at block 0. -/
theorem idx_facts : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The cell a tile's row `p` is at point `t`. -/
def row (t : Fin cfg0.N) (p : Fin 8192) : Fin 262144 :=
  ⟨t.val * 8192 + p.val, by have hN : grid0.N = 32 := N_0; have ht : t.val < grid0.N := t.isLt; have := p.isLt; omega⟩

theorem emb_out (t : Fin cfg0.N) (p : Fin 8192) (q : Fin 128) :
    ((cfg0.win 6).blk t).view.emb (ix2 p q) = ix2 (row t p) q := by
  obtain ⟨e0, e1, -⟩ := idx_facts t
  funext a; apply Fin.ext
  match a with
  | ⟨0, _⟩ => show win0_6.index t (0 : Fin 2) * 8192 + 1 * p.val = t.val * 8192 + p.val; omega
  | ⟨1, _⟩ => show win0_6.index t (1 : Fin 2) * 128 + 1 * q.val = q.val; omega

theorem emb_conc (t : Fin cfg0.N) (p : Fin 8192) (q : Fin 128) :
    ((cfg0.win 0).blk t).view.emb (ix2 p q) = ix2 (row t p) q := by
  obtain ⟨-, -, e0, e1, -⟩ := idx_facts t
  funext a; apply Fin.ext
  match a with
  | ⟨0, _⟩ => show win0_0.index t (0 : Fin 2) * 8192 + 1 * p.val = t.val * 8192 + p.val; omega
  | ⟨1, _⟩ => show win0_0.index t (1 : Fin 2) * 128 + 1 * q.val = q.val; omega

theorem emb_expr (t : Fin cfg0.N) (p : Fin 8192) (k : Fin 212) :
    ((cfg0.win 1).blk t).view.emb (ix2 p k) = ix2 (row t p) k := by
  obtain ⟨-, -, -, -, e0, e1, -⟩ := idx_facts t
  funext a; apply Fin.ext
  match a with
  | ⟨0, _⟩ => show win0_1.index t (0 : Fin 2) * 8192 + 1 * p.val = t.val * 8192 + p.val; omega
  | ⟨1, _⟩ => show win0_1.index t (1 : Fin 2) * 212 + 1 * k.val = k.val; omega

theorem emb_genes (t : Fin cfg0.N) (y : S212x64.Idx) : ((cfg0.win 2).blk t).view.emb y = y := by
  obtain ⟨-, -, -, -, -, -, e0, e1, -⟩ := idx_facts t
  funext a; apply Fin.ext
  match a with
  | ⟨0, _⟩ => show win0_2.index t (0 : Fin 2) * 212 + 1 * (y 0).val = (y 0).val; omega
  | ⟨1, _⟩ => show win0_2.index t (1 : Fin 2) * 64 + 1 * (y 1).val = (y 1).val; omega

theorem emb_sub (t : Fin cfg0.N) (y : S128x64.Idx) : ((cfg0.win 3).blk t).view.emb y = y := by
  obtain ⟨-, -, -, -, -, -, -, -, e0, e1, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 64 + 1 * (y 1).val = (y 1).val; omega

theorem emb_stoichT (t : Fin cfg0.N) (y : S64x128.Idx) : ((cfg0.win 4).blk t).view.emb y = y := by
  obtain ⟨-, -, -, -, -, -, -, -, -, -, e0, e1, -⟩ := idx_facts t
  funext a; apply Fin.ext
  match a with
  | ⟨0, _⟩ => show win0_4.index t (0 : Fin 2) * 64 + 1 * (y 0).val = (y 0).val; omega
  | ⟨1, _⟩ => show win0_4.index t (1 : Fin 2) * 128 + 1 * (y 1).val = (y 1).val; omega

theorem emb_kcat (t : Fin cfg0.N) (y : S1x64.Idx) : ((cfg0.win 5).blk t).view.emb y = y := by
  obtain ⟨-, -, -, -, -, -, -, -, -, -, -, -, e0, e1⟩ := idx_facts t
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- WHAT POINT `t` WRITES BACK is rows `8192·t …` of the widened step of the arrays the region finds. -/
theorem flushed_eq (c : Dev nD) (t : Fin cfg0.N) :
    (dats m 0 c).flushed 6 t = ((cfg0.win 6).blk t).view.read (Elt Ideal) (padded m c) := by
  show (cfg0.win 6).cut (grid0.coords t) ((dats m 0 c).after 6 t) = _
  rw [after0_6]
  unfold out0_6
  rw [View.canon_unit_zero zero_offsets]
  simp only [View.ld_unit_zero (S := S8192x128) zero_offsets, View.ld_unit_zero (S := S8192x212) zero_offsets,
    View.ld_unit_zero (S := S212x64) zero_offsets, View.ld_unit_zero (S := S128x64) zero_offsets,
    View.ld_unit_zero (S := S64x128) zero_offsets, View.ld_unit_zero (S := S1x64) zero_offsets]
  funext j
  obtain ⟨p, q, rfl⟩ : ∃ (p : Fin 8192) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = padded m c (((cfg0.win 6).blk t).view.emb (ix2 p q))
  rw [emb_out t p q]
  exact tile_is_stepPad (V m c main_v0) (V m c main_v8) (V m c main_v9) (V m c main_v4) (V m c main_v6) (V m c main_v7)
    (iblk m c 0 t) (iblk m c 1 t) (iblk m c 2 t) (iblk m c 3 t) (iblk m c 4 t) (iblk m c 5 t) (row t)
    (fun p q => congrArg (V m c main_v0) (emb_conc t p q))
    (fun p k => congrArg (V m c main_v8) (emb_expr t p k))
    (funext fun y => congrArg (V m c main_v9) (emb_genes t y))
    (funext fun y => congrArg (V m c main_v4) (emb_sub t y))
    (funext fun y => congrArg (V m c main_v6) (emb_stoichT t y))
    (funext fun y => congrArg (V m c main_v7) (emb_kcat t y)) p q

/-- An index of the output array is in point `t`'s block iff each coordinate is in the block's range on its axis. -/
theorem mem_blk (t : Fin cfg0.N) (i : S262144x128.Idx) :
    i ∈ ((cfg0.win 6).blk t).view.set ↔ ∀ a : Fin 2, win0_6.index t a * S8192x128.size a ≤ (i a).val ∧ (i a).val < win0_6.index t a * S8192x128.size a + S8192x128.size a := by
  show i ∈ ((View.whole main_v10).slice (win0_6.rect t)).set ↔ _
  rw [View.set_slice_whole, Rect.mem_set_unit]
  exact Iff.rfl

/-- Every cell is some point's: cell `r` is in the tile of point `r / 8192`. -/
theorem covered (i : S262144x128.Idx) :
    ∃ t : Fin cfg0.N, (cfg0.win 6).flush t = true ∧ i ∈ ((cfg0.win 6).blk t).view.set := by
  have hN : grid0.N = 32 := N_0
  have hi0 : (i 0).val < 262144 := (i 0).isLt
  have hi1 : (i 1).val < 128 := (i 1).isLt
  let t : Fin cfg0.N := ⟨(i 0).val / 8192, by show (i 0).val / 8192 < grid0.N; omega⟩
  have htv : t.val = (i 0).val / 8192 := rfl
  obtain ⟨e0, e1, -⟩ := idx_facts t
  refine ⟨t, flush0_6 t, ?_⟩
  rw [mem_blk]
  intro a
  match a with
  | ⟨0, _⟩ => show win0_6.index t (0 : Fin 2) * 8192 ≤ (i 0).val ∧ (i 0).val < win0_6.index t (0 : Fin 2) * 8192 + 8192; omega
  | ⟨1, _⟩ => show win0_6.index t (1 : Fin 2) * 128 ≤ (i 1).val ∧ (i 1).val < win0_6.index t (1 : Fin 2) * 128 + 128; omega

/-- THE OUTPUT ARRAY after the region: the widened step of the arrays the region finds. -/
theorem final (c : Dev nD) : (dats m 0 c).arrAt 6 cfg0.N = padded m c :=
  (dats m 0 c).arrAt_eq_of_cover 6 (padded m c) (fun t _ => flushed_eq m c t) covered

end Cert.KernelIdeal.Blocks

end
-- ==== Proof.Entry.lean ====
import proofs.«181689_j74663711474155_2_alg».proof.Proof.Gen.KernelIdeal.Frame
import proofs.«181689_j74663711474155_2_alg».proof.Proof.Spec
import Idealize.ShloMosaic.Lib.ValueIdx
import Idealize.ShloMosaic.Lib.ValueLayout
import Idealize.ShloMosaic.Lib.KernelVsHost
import Idealize.ShloMosaic.PureOps.Ideal.Laws

/-!
# The arrays the kernel region reads, in terms of the five arguments

Before the region the program prepares its operands from the argument arrays: it widens the metabolite axis of the
concentrations, of the substrate coefficients and of the transposed stoichiometry from 114 to 128 positions with
zeros, forms the substrate coefficients `max (−S, 0)`, transposes the stoichiometry, lays the rate constants out as
one row, and changes the float format of the expression matrix and of the gene map.

On the extended reals each of these is elementary:

* widening an axis with zeros leaves the first 114 positions as they were and puts `0` in the rest;
* a transpose swaps the two coordinates;
* a vector laid out as a one-row matrix has the same entries;
* a change of float format is the identity.
-/

noncomputable section

namespace Cert.KernelIdeal.Entry

open Cert.KernelIdeal Cert.KernelIdeal.Gen Idealize.ShloMosaic Idealize.ShloMosaic.TcCoe Idealize.ShloMosaic.ValueIdx Idealize.SL.Sem

/-! ## A matrix widened at the high end of its axes -/

section Widen
variable {α : Type}

/-- A matrix widened at the high end of each axis (nothing in front, nothing between entries) reads, at a position
    whose two coordinates are those of a position `(a, k)` of the operand, the operand's entry there. -/
theorem pad_hi_inside {n0 n1 n0' n1' : ℕ} (hi : Fin 2 → ℕ) (x : (⟨2, ![n0, n1]⟩ : Shape).Idx → α) {u : Shape} (v : u.Idx → α)
    (h : (⟨2, ![n0, n1]⟩ : Shape).Pads (![0, 0] : Fin 2 → ℕ) hi ![0, 0] ⟨2, ![n0', n1']⟩) (hu : 0 < u.numel)
    (a : Fin n0) (k : Fin n1) (a' : Fin n0') (k' : Fin n1') (ha : a'.val = a.val) (hk : k'.val = k.val) :
    pad ⟨2, ![n0', n1']⟩ ![0, 0] hi ![0, 0] x v h hu (ix2 a' k') = x (ix2 a k) :=
  pad_apply_of_inside _ _ _ x v h hu _ (ix2 a k) (fun ax => by
    match ax with
    | ⟨0, _⟩ => show a'.val = 0 + a.val * (0 + 1); omega
    | ⟨1, _⟩ => show k'.val = 0 + k.val * (0 + 1); omega)

/-- The same matrix read at a row past the operand's last row is the padding value. -/
theorem pad_hi_outside_row {n0 n1 n0' n1' : ℕ} (hi : Fin 2 → ℕ) (x : (⟨2, ![n0, n1]⟩ : Shape).Idx → α) {u : Shape}
    (v : u.Idx → α) (h : (⟨2, ![n0, n1]⟩ : Shape).Pads (![0, 0] : Fin 2 → ℕ) hi ![0, 0] ⟨2, ![n0', n1']⟩) (hu : 0 < u.numel)
    (a' : Fin n0') (k' : Fin n1') (ha : n0 ≤ a'.val) :
    pad ⟨2, ![n0', n1']⟩ ![0, 0] hi ![0, 0] x v h hu (ix2 a' k') = v (Shape.Idx.first hu) :=
  pad_apply_of_not_inside _ _ _ x v h hu _ (⟨0, by decide⟩ : Fin 2) (by
    intro hin
    have e : (a'.val - 0) / (0 + 1) < n0 := hin.2.2
    rw [Nat.sub_zero, Nat.zero_add, Nat.div_one] at e
    omega)

end Widen

/-- The padding value, the integer `0` converted to a float, is the extended real `0`. -/
theorem padding_zero (i : S_.Idx) : (sitofp (F := Ideal) .f32 (constantI S_ 32 0#32) : FVec Ideal S_ .f32) i = 0 := by
  show ((((0#32 : BitVec 32).toInt : ℤ) : ℝ) : EReal) = 0
  simp

/-- The maximum of `−S` and the zero matrix, read at `(k, j)`, is the negative part of `S (k, j)`: the substrate
    coefficient. -/
theorem negPart_apply (S : Cert.Kinetics.Arr 114 64) (k : Fin 114) (j : Fin 64) :
    maximumf (F := Ideal) (φ := .f32) (Host.negf S)
        (broadcastInDim S114x64 ![] bcast_S_S114x64 (constant (F := Ideal) S_ .f32 0x00000000#32)) (ix2 k j)
      = Cert.Kinetics.substrate S k j := by
  show max (-(S (ix2 k j))) (Ideal.ofBits .f32 0x00000000#32) = max (-(S (ix2 k j))) 0
  rw [Ideal.ofBits_zero_f32]

variable (m : (ℓ : Loc nD τ sig) → Buf (Elt Ideal) ℓ) (c : Dev nD)

/-! ## Each prepared array as a term over the arguments -/

/-- The widened concentrations: the first argument with 14 zero columns appended. -/
theorem v0_term : (V m c main_v0 : S262144x128.Idx → EReal)
    = pad S262144x128 ![0, 0] ![0, 14] ![0, 0] (m ((c : Thread nD τ).loc main_arg0))
        (sitofp (F := Ideal) .f32 (constantI S_ 32 0#32)) pads_S262144x114_S262144x128_000_0140 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The expression matrix in the narrower float format. -/
theorem v8_term : (V m c main_v8 : S262144x212.Idx → EReal)
    = truncf (F := Ideal) .bf16 (m ((c : Thread nD τ).loc main_arg1)) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results

/-- The gene map in the narrower float format. -/
theorem v9_term : (V m c main_v9 : S212x64.Idx → EReal)
    = truncf (F := Ideal) .bf16 (m ((c : Thread nD τ).loc main_arg3)) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results

/-- The widened substrate coefficients: `max (−S, 0)` with 14 zero rows appended. -/
theorem v4_term : (V m c main_v4 : S128x64.Idx → EReal)
    = pad S128x64 ![0, 0] ![14, 0] ![0, 0]
        (maximumf (Host.negf (m ((c : Thread nD τ).loc main_arg2)))
          (broadcastInDim S114x64 ![] bcast_S_S114x64 (constant (F := Ideal) S_ .f32 0x00000000#32)))
        (sitofp (F := Ideal) .f32 (constantI S_ 32 0#32)) pads_S114x64_S128x64_0140_000 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The widened transposed stoichiometry: the transpose of `S` with 14 zero columns appended. -/
theorem v6_term : (V m c main_v6 : S64x128.Idx → EReal)
    = pad S64x128 ![0, 0] ![0, 14] ![0, 0]
        (transpose S64x114 [1, 0] (m ((c : Thread nD τ).loc main_arg2)) transposes_S114x64_S64x114_1_0)
        (sitofp (F := Ideal) .f32 (constantI S_ 32 0#32)) pads_S64x114_S64x128_000_0140 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The rate constants as one row. -/
theorem v7_term : (V m c main_v7 : S1x64.Idx → EReal)
    = shapeCast S1x64 (m ((c : Thread nD τ).loc main_arg4)) shapeCasts_S64_S1x64 := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-! ## The six facts -/

/-- On its first 114 columns the widened concentration matrix is the concentration argument. -/
theorem entry_conc_lo : ∀ (b : Fin 262144) (k : Fin 114),
    (V m c main_v0 : Cert.Kinetics.Arr 262144 128) (ix2 b (Fin.castLE (by decide) k))
      = (m ((c : Thread nD τ).loc main_arg0) : Cert.Kinetics.Arr 262144 114) (ix2 b k) := by
  intro b k
  refine (congrFun (v0_term m c) _).trans ?_
  exact pad_hi_inside (n0' := 262144) (n1' := 128) _ _ _ _ _ b k b (Fin.castLE (by decide) k) rfl rfl

/-- A change of float format is the identity on extended reals: the expression matrix is the argument. -/
theorem entry_expr : (V m c main_v8 : Cert.Kinetics.Arr 262144 212)
    = (m ((c : Thread nD τ).loc main_arg1) : Cert.Kinetics.Arr 262144 212) := by
  refine (v8_term m c).trans ?_
  funext i
  rfl

/-- A change of float format is the identity on extended reals: the gene map is the argument. -/
theorem entry_genes : (V m c main_v9 : Cert.Kinetics.Arr 212 64)
    = (m ((c : Thread nD τ).loc main_arg3) : Cert.Kinetics.Arr 212 64) := by
  refine (v9_term m c).trans ?_
  funext i
  rfl

/-- On its first 114 rows the widened substrate matrix is the negative part of the stoichiometry. -/
theorem entry_sub_lo : ∀ (k : Fin 114) (j : Fin 64),
    (V m c main_v4 : Cert.Kinetics.Arr 128 64) (ix2 (Fin.castLE (by decide) k) j)
      = Cert.Kinetics.substrate (m ((c : Thread nD τ).loc main_arg2) : Cert.Kinetics.Arr 114 64) k j := by
  intro k j
  refine (congrFun (v4_term m c) _).trans ?_
  refine Eq.trans (pad_hi_inside (n0' := 128) (n1' := 64) _ _ _ _ _ k j (Fin.castLE (by decide) k) j rfl rfl) ?_
  exact negPart_apply _ k j

/-- Its 14 extra rows are zero. -/
theorem entry_sub_hi : ∀ (k : Fin 128) (j : Fin 64), 114 ≤ k.val →
    (V m c main_v4 : Cert.Kinetics.Arr 128 64) (ix2 k j) = (0 : EReal) := by
  intro k j hk
  refine (congrFun (v4_term m c) _).trans ?_
  refine (pad_hi_outside_row _ _ _ _ _ k j hk).trans ?_
  exact padding_zero _

/-- On its first 114 columns the widened transposed stoichiometry is the stoichiometry with its coordinates swapped. -/
theorem entry_stoichT : ∀ (j : Fin 64) (q : Fin 114),
    (V m c main_v6 : Cert.Kinetics.Arr 64 128) (ix2 j (Fin.castLE (by decide) q))
      = (m ((c : Thread nD τ).loc main_arg2) : Cert.Kinetics.Arr 114 64) (ix2 q j) := by
  intro j q
  refine (congrFun (v6_term m c) _).trans ?_
  refine Eq.trans (pad_hi_inside (n0' := 64) (n1' := 128) _ _ _ _ _ j q j (Fin.castLE (by decide) q) rfl rfl) ?_
  exact transpose_ix2_apply _ _ j q

/-- The one-row matrix of rate constants has the vector's entries. -/
theorem entry_kcat : ∀ j : Fin 64,
    (V m c main_v7 : Cert.Kinetics.Arr 1 64) (ix2 (0 : Fin 1) j)
      = (m ((c : Thread nD τ).loc main_arg4) : (⟨1, ![64]⟩ : Shape).Idx → EReal) (ix1 j) := by
  intro j
  refine (congrFun (v7_term m c) _).trans ?_
  exact shapeCast_a_1a_apply _ _ (0 : Fin 1) j

end Cert.KernelIdeal.Entry

end
-- ==== Proof.Tail.lean ====
import proofs.«181689_j74663711474155_2_alg».proof.Proof.Gen.KernelIdeal.Frame
import proofs.«181689_j74663711474155_2_alg».proof.Proof.Blocks
import proofs.«181689_j74663711474155_2_alg».proof.Proof.Entry
import proofs.«181689_j74663711474155_2_alg».proof.Proof.Spec
import Idealize.ShloMosaic.Lib.Pipeline.Value
import Idealize.ShloMosaic.Lib.ValueIdx
import Idealize.ShloMosaic.Lib.ValueLayout
import Idealize.ShloMosaic.Lib.StableHlo.Run

/-!
# The kernel program's result

After the region the program keeps the first 114 lanes of the 128-lane output. The output array is the widened
step of the widened arrays (the blocks module); on the first 114 lanes the widened step is the step of the
arguments themselves (`stepPad_eq_step`), because the widened arrays are the arguments there and the widened
substrate matrix is zero on its 14 extra rows. So the program's result is the kinetics step of its five arguments.
-/

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The kinetics step of the program's five arguments as launched. -/
def result (c : Dev nD) : S262144x114.Idx → EReal :=
  Cert.Kinetics.step (m ((c : Thread nD τ).loc main_arg0)) (m ((c : Thread nD τ).loc main_arg1))
    (m ((c : Thread nD τ).loc main_arg2)) (m ((c : Thread nD τ).loc main_arg3)) (m ((c : Thread nD τ).loc main_arg4))

/-- The one operation after the region reads the output array's first 114 lanes. -/
theorem tail_eq (c : Dev nD) :
    Pipeline.afterTail₀ cfgs (dats m) 0 (V0 m) [hostOps1] c main_v11
      = extractStridedSlice S262144x114 ![0, 0] (Cert.KernelIdeal.Blocks.padded m c) slices_S262144x128_S262144x114_0_0 := by
  unfold Pipeline.afterTail₀
  show StableHlo.after hostOps1 _ (Proc.devRef .tc main_v11) = _
  after_results
  rw [Pipeline.withArrays_arr spec0 launch0.win.arr_inj c _ _ 6, Cert.KernelIdeal.Blocks.final]

/-- The program's result buffer after the run, read as a function of the arguments: the kinetics step. -/
theorem tail_is_step  (c : Dev nD) :
    Pipeline.afterTail₀ cfgs (dats m) 0 (V0 m) [hostOps1] c main_v11 = result m c := by
  rw [tail_eq]
  funext i
  obtain ⟨b, q, rfl⟩ : ∃ (b : Fin 262144) (q : Fin 114), i = ix2 b q := ⟨i 0, i 1, eq_ix2 (n0 := 262144) (n1 := 114) i⟩
  rw [slice2_axis1_apply 0 (Cert.KernelIdeal.Blocks.padded m c) slices_S262144x128_S262144x114_0_0 b q
    (Fin.castLE (by decide) q) (Nat.zero_add _).symm]
  exact Cert.Kinetics.stepPad_eq_step _ _ _ _ _ _ _ _ _ _ _
    (Cert.KernelIdeal.Entry.entry_conc_lo m c) (Cert.KernelIdeal.Entry.entry_expr m c) (Cert.KernelIdeal.Entry.entry_genes m c) (Cert.KernelIdeal.Entry.entry_sub_lo m c)
    (Cert.KernelIdeal.Entry.entry_sub_hi m c) (Cert.KernelIdeal.Entry.entry_stoichT m c) (Cert.KernelIdeal.Entry.entry_kcat m c) b q

/-- The kernel program's run, read: every weakly fair execution ends with the result buffer at the kinetics step of
    the arguments as launched, and the arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v11 (Pipeline.mem_restRefs_of main_v11 (by decide) (by decide))).trans (tail_is_step m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  A fused kernel for one Euler step of mass-action kinetics against its array-at-a-time reference.

  Both programs compute, for every cell `b` and metabolite `i`,
    `max (conc(b,i) + Δt · Σ_j kcat(j) · σ(Σ_g expr(b,g)·G(g,j)) · exp(Σ_k log(conc(b,k)+ε) · max(−S(k,j),0)) · S(i,j), 0)`.
  The kernel widens the metabolite axis from 114 to 128 lanes with zeros (on the concentrations, on the rows of the
  substrate matrix and on the columns of the transposed stoichiometry), works on tiles of 8192 cells, and keeps the
  first 114 lanes of its 128-lane output. On the extended reals the 14 extra terms of the substrate sum are
  `x · 0 = 0` whatever `x` is, the extra output lanes are dropped, a change of float format is the identity, the
  kernel's one logistic operation is by definition the reference's `1 / (1 + e^{−x})`, and a matrix product into a
  zero accumulator is the plain sum on both sides. So the two results are one function of the arguments
  (`Cert.Kinetics.step`), and the precondition is never used.

  Modules: Spec (the step, its widened form, the law joining them), LibPadSum (a sum with a vanishing tail),
  Reference (the reference is the step), Payload (the kernel body on one tile), Entry (the widened arrays read at an
  index), Blocks (tiles to the whole output array), Tail (the kept lanes; the kernel's run read as a value).
-/
import proofs.«181689_j74663711474155_2_alg».proof.Defs
import proofs.«181689_j74663711474155_2_alg».proof.Proof.Gen.Kernel
import proofs.«181689_j74663711474155_2_alg».proof.Proof.Gen.Kernel.Skeleton
import proofs.«181689_j74663711474155_2_alg».proof.Proof.Gen.Kernel.Launch
import proofs.«181689_j74663711474155_2_alg».proof.Proof.Gen.Kernel.Points
import proofs.«181689_j74663711474155_2_alg».proof.Proof.Gen.Kernel.Frame
import proofs.«181689_j74663711474155_2_alg».proof.Proof.Gen.KernelIdeal
import proofs.«181689_j74663711474155_2_alg».proof.Proof.Gen.KernelIdeal.Skeleton
import proofs.«181689_j74663711474155_2_alg».proof.Proof.Gen.KernelIdeal.Launch
import proofs.«181689_j74663711474155_2_alg».proof.Proof.Gen.KernelIdeal.Points
import proofs.«181689_j74663711474155_2_alg».proof.Proof.Gen.KernelIdeal.Frame
import proofs.«181689_j74663711474155_2_alg».proof.Proof.Gen.ReferenceIdeal
import proofs.«181689_j74663711474155_2_alg».proof.Proof.Gen.ReferenceIdeal.Run
import proofs.«181689_j74663711474155_2_alg».proof.Proof.Gen.ReferenceIdeal.Read
import proofs.«181689_j74663711474155_2_alg».proof.Proof.Gen.Pre_finite_inputs
import proofs.«181689_j74663711474155_2_alg».proof.Proof.Reference
import proofs.«181689_j74663711474155_2_alg».proof.Proof.Tail
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end at the kinetics step of the same arguments: the kernel by its tiles,
    its widened arrays and the lanes it keeps; the reference operation by operation. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v25_eq _ _ _ _ _).trans
    (Cert.ReferenceIdeal.RefValue.reference_is_step _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
